-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S128x64 : Shape := ⟨2, ![128, 64]⟩
abbrev S64 : Shape := ⟨1, ![64]⟩
abbrev S64x1024 : Shape := ⟨2, ![64, 1024]⟩
abbrev S1024 : Shape := ⟨1, ![1024]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1024 : S_.BroadcastsInDim S64x1024 (![] : Fin 0 → Fin S64x1024.rank)
  reducesTo_S64x1024_S_d0_1 : S64x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S32768x128 .f32) (main_arg1 : FVec F S128x64 .f32) (main_arg2 : FVec F S64 .f32) (main_arg3 : FVec F S64x1024 .f32) (main_arg4 : FVec F S1024 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_v13 main_v16
-- ==== Kernel.lean ====
abbrev S32768x128 : Shape := ⟨2, ![32768, 128]⟩
abbrev S128x64 : Shape := ⟨2, ![128, 64]⟩
abbrev S64 : Shape := ⟨1, ![64]⟩
abbrev S64x1024 : Shape := ⟨2, ![64, 1024]⟩
abbrev S1024 : Shape := ⟨1, ![1024]⟩
abbrev S1x64 : Shape := ⟨2, ![1, 64]⟩
abbrev S1x1024 : Shape := ⟨2, ![1, 1024]⟩
abbrev S32768x1024 : Shape := ⟨2, ![32768, 1024]⟩
abbrev S1024x128 : Shape := ⟨2, ![1024, 128]⟩
abbrev S1024x1024 : Shape := ⟨2, ![1024, 1024]⟩
abbrev S1024x64 : Shape := ⟨2, ![1024, 64]⟩

abbrev nBuf : Space → Nat
  | .hbm => 10
  | .vmem => 12
  | .smem => 0
  | _ => 0

abbrev bufTy : (tb : Table) → Fin (tcTables nBuf tb) → BufTy
  | .hbm, ⟨0, _⟩ => ⟨S32768x128, .f32⟩
  | .hbm, ⟨1, _⟩ => ⟨S128x64, .f32⟩
  | .hbm, ⟨2, _⟩ => ⟨S64, .f32⟩
  | .hbm, ⟨3, _⟩ => ⟨S64x1024, .f32⟩
  | .hbm, ⟨4, _⟩ => ⟨S1024, .f32⟩
  | .hbm, ⟨5, _⟩ => ⟨S1x64, .f32⟩
  | .hbm, ⟨6, _⟩ => ⟨S1x1024, .f32⟩
  | .hbm, ⟨7, _⟩ => ⟨S32768x1024, .f32⟩
  | .hbm, ⟨8, _⟩ => ⟨S32768x1024, .f32⟩
  | .hbm, ⟨9, _⟩ => ⟨S32768x1024, .f32⟩
  | .local _ .vmem, ⟨0, _⟩ => ⟨S1024x128, .f32⟩
  | .local _ .vmem, ⟨1, _⟩ => ⟨S1024x128, .f32⟩
  | .local _ .vmem, ⟨2, _⟩ => ⟨S128x64, .f32⟩
  | .local _ .vmem, ⟨3, _⟩ => ⟨S1x64, .f32⟩
  | .local _ .vmem, ⟨4, _⟩ => ⟨S64x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64_S1x64 : S64.ShapeCasts S1x64
  shapeCasts_S1024_S1x1024 : S1024.ShapeCasts S1x1024
  inb_S1024x128_S1024x128_0_0 : ∀ a, (![0, 0] : Fin 2 → Nat) a + S1024x128.size a ≤ S1024x128.size a
  h_S1024x128 : 0 < S1024x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x1024_S64x1024_0_0 : ∀ a, (![0, 0] : Fin 2 → Nat) a + S64x1024.size a ≤ S64x1024.size a
  h_S64x1024 : 0 < S64x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  natLt_1_32 : 1 < 32
  dot_S1024x128_S128x64_S1024x64_1_0_0_1_n_n_wf : DotDims.WF S1024x128 S128x64 S1024x64 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x128.size a
  hwx0_0 : ∀ i : grid0.Coords, EltTy.bits .f32 = 32 ∨ (Rect.block (s := S32768x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x1024.size a
  hwx0_3 : ∀ i : grid0.Coords, EltTy.bits .f32 = 32 ∨ (Rect.block (s := S64x1024) S64x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S32768x1024.size a
  hwx0_5 : ∀ i : grid0.Coords, EltTy.bits .f32 = 32 ∨ (Rect.block (s := S32768x1024) S1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S32768x1024.size a
  hwx0_6 : ∀ i : grid0.Coords, EltTy.bits .f32 = 32 ∨ (Rect.block (s := S32768x1024) S1024x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S32768x1024.size a
  hwx0_7 : ∀ i : grid0.Coords, EltTy.bits .f32 = 32 ∨ (Rect.block (s := S32768x1024) S1024x1024.size (cc0_transform_7 i) (hinb0_7 i)).WholeWords (EltTy.packing .f32)

variable [Facts₀]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1024x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x128 : Shape := ⟨2, ![32768, 128]⟩
abbrev S128x64 : Shape := ⟨2, ![128, 64]⟩
abbrev S64 : Shape := ⟨1, ![64]⟩
abbrev S64x1024 : Shape := ⟨2, ![64, 1024]⟩
abbrev S1024 : Shape := ⟨1, ![1024]⟩
abbrev S32768x64 : Shape := ⟨2, ![32768, 64]⟩
abbrev S1x64 : Shape := ⟨2, ![1, 64]⟩
abbrev S_ : Shape := ⟨0, ![]⟩
abbrev S32768x1024 : Shape := ⟨2, ![32768, 1024]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S128x64, .f32⟩
  | .hbm, ⟨2, _⟩ => ⟨S64, .f32⟩
  | .hbm, ⟨3, _⟩ => ⟨S64x1024, .f32⟩
  | .hbm, ⟨4, _⟩ => ⟨S1024, .f32⟩
  | .hbm, ⟨5, _⟩ => ⟨S32768x64, .f32⟩
  | .hbm, ⟨6, _⟩ => ⟨S1x64, .f32⟩
  | .hbm, ⟨7, _⟩ => ⟨S32768x64, .f32⟩
  | .hbm, ⟨8, _⟩ => ⟨S32768x64, .f32⟩
  | .hbm, ⟨9, _⟩ => ⟨S_, .f32⟩
  | .hbm, ⟨10, _⟩ => ⟨S32768x64, .f32⟩
  | .hbm, ⟨11, _⟩ => ⟨S32768x64, .f32⟩
  | .hbm, ⟨12, _⟩ => ⟨S32768x1024, .f32⟩
  | .hbm, ⟨13, _⟩ => ⟨S1x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .i1⟩
  | .hbm, ⟨30, _⟩ => ⟨S32768x1024, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S_S32768x64 : S_.BroadcastsInDim S32768x64 (![] : Fin 0 → Fin S32768x64.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  dot_S32768x128_S128x64_S32768x64_1_0_0_1_n_n_wf : DotDims.WF S32768x128 S128x64 S32768x64 [1] [0] [0] [1] [] []
  dot_S32768x64_S64x1024_S32768x1024_1_0_0_1_n_n_wf : DotDims.WF S32768x64 S64x1024 S32768x1024 [1] [0] [0] [1] [] []

variable [Facts₀]

def dot_S32768x128_S128x64_S32768x64_1_0_0_1_n_n : DotDims S32768x128 S128x64 S32768x64 where
  lhsContracting := [1]
  rhsContracting := [0]
  lhsNonContracting := [0]
  rhsNonContracting := [1]
  lhsBatch := []
  rhsBatch := []
  wf := dot_S32768x128_S128x64_S32768x64_1_0_0_1_n_n_wf
def dot_S32768x64_S64x1024_S32768x1024_1_0_0_1_n_n : DotDims S32768x64 S64x1024 S32768x1024 where
  lhsContracting := [1]
  rhsContracting := [0]
  lhsNonContracting := [0]
  rhsNonContracting := [1]
  lhsBatch := []
  rhsBatch := []
  wf := dot_S32768x64_S64x1024_S32768x1024_1_0_0_1_n_n_wf

class Facts : Prop extends Facts₀ where

variable [Facts]
-- ==== Proof.LibDenseLayer.lean ====
/-
  A dense layer on the extended reals. For `x : [M, K]`, `w : [K, N]` and a bias `b` per column, the entry `(p, q)`
  of `x · w + b` is `(∑ k, x (p, k) · w (k, q)) + b q`: row `p` of `x` against column `q` of `w`. `denseClamp` is the same
  layer applied to `max x z`, the entries of `x` clamped below at `z` (a rectifier when `z` is zero).

  An entry of the layer depends on ONE row of `x` only. So a block of consecutive rows of the layer's output is the layer
  applied to that block of rows of `x` (`denseAt_rows`): computing the layer block of rows by block of rows, in any
  order, gives the layer.
-/
import Idealize.ShloMosaic.Lib.ValueIdx

noncomputable section

open scoped BigOperators

namespace Cert.DenseLayer

open Idealize.ShloMosaic Idealize.ShloMosaic.ValueIdx

/-- Entry `(p, q)` of `x · w + b`. -/
def denseAt {M K N : ℕ} (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The array `x · w + b`. -/
def dense {M K N : ℕ} (x : (⟨2, ![M, K]⟩ : Shape).Idx → EReal) (w : (⟨2, ![K, N]⟩ : Shape).Idx → EReal) (b : Fin N → EReal) :
    (⟨2, ![M, N]⟩ : Shape).Idx → EReal :=
  fun i => denseAt x w b (i 0) (i 1)

theorem dense_ix2 {M K N : ℕ} (x : (⟨2, ![M, K]⟩ : Shape).Idx → EReal) (w : (⟨2, ![K, N]⟩ : Shape).Idx → EReal) (b : Fin N → EReal)
    (p : Fin M) (q : Fin N) : dense x w b (ix2 p q) = denseAt x w b p q := rfl

/-- The array `max x z · w + b`. -/
def denseClamp {M K N : ℕ} (z : EReal) (x : (⟨2, ![M, K]⟩ : Shape).Idx → EReal) (w : (⟨2, ![K, N]⟩ : Shape).Idx → EReal)
    (b : Fin N → EReal) : (⟨2, ![M, N]⟩ : Shape).Idx → EReal :=
  dense (fun i => max (x i) z) w b

/-- Row `p` of the layer on a block of rows is row `P` of the layer on the whole array, when row `p` of the block is
    row `P` of the array. -/
theorem denseAt_rows {M m K N : ℕ} (x : (⟨2, ![M, K]⟩ : Shape).Idx → EReal) (xb : (⟨2, ![m, K]⟩ : Shape).Idx → EReal)
    (w : (⟨2, ![K, N]⟩ : Shape).Idx → EReal) (b : Fin N → EReal) (p : Fin m) (P : Fin M) (q : Fin N)
    (h : ∀ k : Fin K, xb (ix2 p k) = x (ix2 P k)) : denseAt xb w b p q = denseAt x w b P q := by
  unfold denseAt
  exact congrArg (· + b q) (Finset.sum_congr rfl fun k _ => by rw [h k])

end Cert.DenseLayer

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibLayerForms.lean ====
/-
  One layer of a multilayer perceptron on the extended reals, as a vector unit spells it and as a host program spells it,
  and the rectifier between two layers.

  A layer takes a matrix `x : [M, K]`, a weight matrix `w : [K, N]` and a bias vector `b : [N]` to the matrix
  `x · w + b`, the bias added to every row: entry `(p, q)` is `(∑ k, x (p, k) · w (k, q)) + b q`. A vector unit forms the
  product by a matrix multiplication into a zero accumulator, lifts the bias to a `[1, N]` row by a shape cast and broadcasts
  that row over the `M` rows (`vec_layer`). A host program forms the product by a general dot product, lifts the bias
  to a `[1, N]` row by a broadcast along a new leading axis and broadcasts that row over the rows (`host_layer`). Both are
  the same array `dense x w b`. The rectifier `max v 0` is spelt with a scalar zero broadcast to the shape on the vector unit
  (`vec_relu`) and with a rank-0 zero constant broadcast to the shape on the host (`host_relu`).

  A layer's row `p` depends on row `p` of its operand only, and so does the rectifier's. `RowsAgree xb x off` says that
  `xb` is the block of rows `off, off + 1, …` of `x`; a layer and the rectifier send agreeing operands to agreeing results
  (`dense_rows`, `relu_rows`), so a perceptron evaluated on a block of rows is that block of rows of the perceptron
  evaluated on all rows.
-/
import proofs.«100649_g16681652977758_cont_week2b_926_7_alg».proof.Proof.LibDenseLayer
import proofs.«100649_g16681652977758_cont_week2b_926_7_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LayerForms

open Idealize.ShloMosaic Idealize.ShloMosaic.ValueIdx Cert.DenseLayer

/-- A bias vector as a function of the column. -/
def colBias {N : ℕ} (b : (⟨1, ![N]⟩ : Shape).Idx → EReal) : Fin N → EReal := fun q => b (ix1 q)

/-- The rectifier: every entry clamped below at zero. -/
def relu {S : Shape} (v : S.Idx → EReal) : S.Idx → EReal := fun i => max (v i) 0

/-- A plain `[M, K] · [K, N]` general dot product of a host program, at `(p, q)`, is `∑ k, l (p, k) · r (k, q)`. -/
theorem dotGeneral_plain_apply {M K N : ℕ} {φ₁ φ₂ : FTy}
    (D : DotDims ⟨2, ![M, K]⟩ ⟨2, ![K, N]⟩ ⟨2, ![M, N]⟩) (hD : D = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  subst hD
  rw [Ideal.dotGeneral_apply, ← Equiv.sum_comp (contrEquiv1 (DotDims.plain M K N) K rfl rfl).symm]
  refine Finset.sum_congr rfl fun k _ => ?_
  rw [Cert.LibPlainMatmul.plain_lhsIdx, Cert.LibPlainMatmul.plain_rhsIdx]

/-- The layer as a vector unit spells it: the product into a zero accumulator, plus the bias cast to a row and
    broadcast over the rows. -/
theorem vec_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (colBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix1 q)
  rw [Cert.LibPlainMatmul.matmul_plain_zero_apply D hD, broadcastTo_1b_ab_apply, shapeCast_a_1a_apply]

/-- The layer as a host program spells it: the general dot product, plus the bias broadcast to a row along a new leading
    axis and that row broadcast over the rows. -/
theorem host_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) := by
  funext i
  obtain ⟨p, q, rfl⟩ : ∃ (p : Fin M) (q : Fin N), i = ix2 p q := ⟨i 0, i 1, eq_ix2 i⟩
  show FloatOps.dotGeneral D prec .single x w (ix2 p q)
      + broadcastInDim ⟨2, ![M, N]⟩ ![0, 1] h2 (broadcastInDim ⟨2, ![1, N]⟩ ![1] h1 b) (ix2 p q)
    = (∑ k : Fin K, x (ix2 p k) * w (ix2 k q)) + b (ix1 q)
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ =>
      show q.val = if N = 1 then 0 else q.val
      split
      · have := q.isLt; omega
      · rfl
  rw [dotGeneral_plain_apply D hD, e2, e1]

/-- The rectifier as a vector unit spells it: the maximum with a scalar zero broadcast to the shape. -/
theorem vec_relu {S : Shape} (v : FVec Ideal S .f32) :
    maximumf v (broadcast S (Scalar.ofBits (F := Ideal) .f32 0x00000000#32)) = relu v := by
  funext i
  show max (v i) (Ideal.ofBits .f32 0x00000000#32) = max (v i) 0
  rw [Ideal.ofBits_zero_f32]

/-- The rectifier as a host program spells it: the maximum with a rank-0 zero constant broadcast to the shape. -/
theorem host_relu {S : Shape} (v : FVec Ideal S .f32) (h : (⟨0, ![]⟩ : Shape).BroadcastsInDim S ![]) :
    maximumf v (broadcastInDim S ![] h (constant (F := Ideal) ⟨0, ![]⟩ .f32 0x00000000#32)) = relu v := by
  funext i
  show max (v i) (Ideal.ofBits .f32 0x00000000#32) = max (v i) 0
  rw [Ideal.ofBits_zero_f32]

/-! ## Blocks of rows -/

/-- `xb` is the block of rows `off, off + 1, …` of `x`. -/
def RowsAgree {m M K : ℕ} (xb : (⟨2, ![m, K]⟩ : Shape).Idx → EReal) (x : (⟨2, ![M, K]⟩ : Shape).Idx → EReal) (off : ℕ) : Prop :=
  ∀ (p : Fin m) (P : Fin M), P.val = off + p.val → ∀ k : Fin K, xb (ix2 p k) = x (ix2 P k)

/-- A layer on a block of rows is that block of rows of the layer. -/
theorem dense_rows {m M K N : ℕ} {xb : (⟨2, ![m, K]⟩ : Shape).Idx → EReal} {x : (⟨2, ![M, K]⟩ : Shape).Idx → EReal} {off : ℕ}
    (h : RowsAgree xb x off) (w : (⟨2, ![K, N]⟩ : Shape).Idx → EReal) (b : Fin N → EReal) :
    RowsAgree (dense xb w b) (dense x w b) off :=
  fun p P hP q => by
    rw [dense_ix2, dense_ix2]
    exact denseAt_rows x xb w b p P q (h p P hP)

/-- The rectifier on a block of rows is that block of rows of the rectifier. -/
theorem relu_rows {m M K : ℕ} {xb : (⟨2, ![m, K]⟩ : Shape).Idx → EReal} {x : (⟨2, ![M, K]⟩ : Shape).Idx → EReal} {off : ℕ}
    (h : RowsAgree xb x off) : RowsAgree (relu xb) (relu x) off :=
  fun p P hP k => by
    show max (xb (ix2 p k)) 0 = max (x (ix2 P k)) 0
    rw [h p P hP k]

end Cert.LayerForms

end
-- ==== Proof.LibLogistic.lean ====
/-
  The logistic function on the extended reals, in the two ways a program spells it, and its threshold at one half.

  A host program spells the logistic function of `l` as `1 / (1 + exp (-(l / 1)))` (`hostLogistic`): on a real `r` that is
  the real number `1 / (1 + e^(-r))`, at `-∞` it is `0` (the exponential of `+∞` is `+∞`, and `1 / +∞ = 0`), at `+∞` it is
  `1` (the exponential of `-∞` is `0`). A vector unit spells it with one hyperbolic tangent, `1/2 · tanh (l / 2) + 1/2`;
  the two agree at every extended real (`half_tanh`): on a real because
  `tanh (r/2) = (e^(r/2) - e^(-r/2)) / (e^(r/2) + e^(-r/2)) = (1 - e^(-r)) / (1 + e^(-r))`, at the infinities because
  `tanh` has the limits `-1` and `1` there.

  The logistic function is increasing with value `1/2` at `0`, so it exceeds `1/2` exactly where its argument is positive
  (`half_lt_hostLogistic`), the infinities included.
-/
import Idealize.ShloMosaic.PureOps.Ideal
import Idealize.ShloMosaic.PureOps.Ideal.Laws

noncomputable section

namespace Cert.LibLogistic

open Idealize.ShloMosaic

/-- The single-precision word of `0.5` is the real number one half. -/
theorem ofBits_half : Ideal.ofBits .f32 0x3F000000#32 = ((1 / 2 : ℝ) : EReal) := by
  simp [Ideal.ofBits, Ideal.ieee, -EReal.coe_mul]; norm_num

/-- The single-precision word of `1.0` is the real number one. -/
theorem ofBits_one : Ideal.ofBits .f32 0x3F800000#32 = ((1 : ℝ) : EReal) := by
  simp [Ideal.ofBits, Ideal.ieee, -EReal.coe_mul]; norm_num

/-- The logistic function of `l` as a host program spells it: `1 / (1 + exp (-(l / 1)))`. -/
def hostLogistic (l : EReal) : EReal :=
  Ideal.div ((1 : ℝ) : EReal) (((1 : ℝ) : EReal) + Ideal.exp (-(Ideal.div l ((1 : ℝ) : EReal))))

/-- A quotient by one is the dividend. -/
theorem div_one' (x : EReal) : Ideal.div x ((1 : ℝ) : EReal) = x := by
  rw [Ideal.div_coe one_ne_zero]; simp

theorem hostLogistic_coe (r : ℝ) : hostLogistic (r : EReal) = ((1 / (1 + Real.exp (-r)) : ℝ) : EReal) := by
  have hpos : (1 + Real.exp (-r) : ℝ) ≠ 0 := by positivity
  unfold hostLogistic
  rw [div_one', ← EReal.coe_neg]
  show Ideal.div ((1 : ℝ) : EReal) (((1 : ℝ) : EReal) + ((Real.exp (-r) : ℝ) : EReal)) = _
  rw [← EReal.coe_add, Ideal.div_coe hpos, ← EReal.coe_mul, one_mul]

theorem hostLogistic_bot : hostLogistic ⊥ = 0 := by
  unfold hostLogistic
  rw [div_one', EReal.neg_bot]
  show Ideal.div ((1 : ℝ) : EReal) (((1 : ℝ) : EReal) + ⊤) = 0
  rw [EReal.coe_add_top]
  simp [Ideal.div]

theorem hostLogistic_top : hostLogistic ⊤ = 1 := by
  unfold hostLogistic
  rw [div_one', EReal.neg_top]
  show Ideal.div ((1 : ℝ) : EReal) (((1 : ℝ) : EReal) + 0) = 1
  rw [add_zero, div_one']; rfl

/-- On the reals, `1/2 · tanh (r/2) + 1/2 = 1 / (1 + e^(-r))`. -/
theorem real_half_tanh (r : ℝ) : 1 / 2 * Real.tanh (1 / 2 * r) + 1 / 2 = 1 / (1 + Real.exp (-r)) := by
  have hb : Real.exp (-r) = Real.exp (-(1 / 2 * r)) * Real.exp (-(1 / 2 * r)) := by
    rw [← Real.exp_add]; congr 1; ring
  have hinv : Real.exp (-(1 / 2 * r)) = (Real.exp (1 / 2 * r))⁻¹ := Real.exp_neg _
  have hp : 0 < Real.exp (1 / 2 * r) := Real.exp_pos _
  rw [Real.tanh_eq_sinh_div_cosh, Real.sinh_eq, Real.cosh_eq, hb, hinv]
  generalize Real.exp (1 / 2 * r) = a at hp
  have ha : a ≠ 0 := ne_of_gt hp
  have h2 : a * a + 1 ≠ 0 := by positivity
  field_simp
  ring

/-- The vector unit's spelling `1/2 · tanh (1/2 · l) + 1/2` is the host's logistic function, at every extended real. -/
theorem half_tanh (l : EReal) :
    ((1 / 2 : ℝ) : EReal) * Ideal.tanh (((1 / 2 : ℝ) : EReal) * l) + ((1 / 2 : ℝ) : EReal) = hostLogistic l := by
  induction l using EReal.rec with
  | bot =>
    rw [EReal.coe_mul_bot_of_pos (by norm_num), hostLogistic_bot]
    show ((1 / 2 : ℝ) : EReal) * (-1 : EReal) + ((1 / 2 : ℝ) : EReal) = 0
    have : (-1 : EReal) = ((-1 : ℝ) : EReal) := by rw [EReal.coe_neg, EReal.coe_one]
    rw [this, ← EReal.coe_mul, ← EReal.coe_add]; norm_num
  | top =>
    rw [EReal.coe_mul_top_of_pos (by norm_num), hostLogistic_top]
    show ((1 / 2 : ℝ) : EReal) * (1 : EReal) + ((1 / 2 : ℝ) : EReal) = 1
    have : (1 : EReal) = ((1 : ℝ) : EReal) := EReal.coe_one.symm
    rw [this, ← EReal.coe_mul, ← EReal.coe_add]; norm_num
  | coe r =>
    rw [← EReal.coe_mul, hostLogistic_coe]
    show ((1 / 2 : ℝ) : EReal) * ((Real.tanh (1 / 2 * r) : ℝ) : EReal) + ((1 / 2 : ℝ) : EReal) = _
    rw [← EReal.coe_mul, ← EReal.coe_add, real_half_tanh]

/-- The logistic function exceeds one half exactly at the positive extended reals. -/
theorem half_lt_hostLogistic (l : EReal) : ((1 / 2 : ℝ) : EReal) < hostLogistic l ↔ 0 < l := by
  induction l using EReal.rec with
  | bot =>
    rw [hostLogistic_bot]
    constructor
    · intro h; exact absurd h (by norm_cast; norm_num)
    · intro h; exact absurd h (not_lt_bot)
  | top =>
    rw [hostLogistic_top]
    constructor
    · intro _; exact EReal.zero_lt_top
    · intro _; norm_cast; norm_num
  | coe r =>
    rw [hostLogistic_coe, EReal.coe_lt_coe_iff]
    have hz : (0 : EReal) < (r : EReal) ↔ 0 < r := by norm_cast
    rw [hz]
    have hpos : (0 : ℝ) < 1 + Real.exp (-r) := by positivity
    rw [lt_div_iff₀ hpos]
    have he : Real.exp (-r) < 1 ↔ -r < 0 := Real.exp_lt_one_iff
    constructor
    · intro h
      have : Real.exp (-r) < 1 := by linarith
      have := he.mp this
      linarith
    · intro h
      have : Real.exp (-r) < 1 := he.mpr (by linarith)
      linarith

end Cert.LibLogistic

end
-- ==== Proof.LibLogisticForms.lean ====
/-
  The logistic head of a classifier on the extended reals, as a vector unit spells it and as a host program spells it, and
  the unit step that thresholds it.

  From an array `v` of logits a host program forms the probabilities `1 / (1 + exp (-(v / 1)))` entry by entry, the ones
  rank-0 constants broadcast to the shape (`host_logistic`); a vector unit forms `1/2 · tanh (1/2 · v) + 1/2`, the halves
  a scalar broadcast to the shape (`vec_logistic`). Both are `hostLogistic` of each entry, by `half_tanh`.

  The unit step is `1` where the probability exceeds one half and `0` elsewhere. A host program compares the probabilities with
  one half and converts the truth value, read unsigned, to a float (`host_step`); a vector unit compares the LOGITS with
  zero, widens the truth value to a 32-bit integer and converts that, read signed (`vec_step`). The logistic function exceeds
  one half exactly at the positive extended reals, so both are `unitStep` of each logit.
-/
import proofs.«100649_g16681652977758_cont_week2b_926_7_alg».proof.Proof.LibLogistic
import Idealize.ShloMosaic.PureOps.Ideal.Laws

noncomputable section

namespace Cert.LibLogisticForms

open Idealize.ShloMosaic Cert.LibLogistic

/-- One at the positive extended reals, zero elsewhere. -/
def unitStep (l : EReal) : EReal := if 0 < l then ((1 : ℝ) : EReal) else ((0 : ℝ) : EReal)

/-- The probabilities as a vector unit spells them: `1/2 · tanh (1/2 · v) + 1/2`. -/
theorem vec_logistic {S : Shape} (v : FVec Ideal S .f32) :
    addf (mulf (broadcast S (Scalar.ofBits (F := Ideal) .f32 0x3F000000#32))
        (tanh (mulf (broadcast S (Scalar.ofBits (F := Ideal) .f32 0x3F000000#32)) v)))
      (broadcast S (Scalar.ofBits (F := Ideal) .f32 0x3F000000#32))
      = fun i => hostLogistic (v i) := by
  funext i
  show Ideal.ofBits .f32 0x3F000000#32 * Ideal.tanh (Ideal.ofBits .f32 0x3F000000#32 * v i) + Ideal.ofBits .f32 0x3F000000#32
    = hostLogistic (v i)
  rw [ofBits_half]
  exact half_tanh (v i)

/-- The probabilities as a host program spells them: `1 / (1 + exp (-(v / 1)))`. -/
theorem host_logistic {S : Shape} (v : FVec Ideal S .f32) (h : (⟨0, ![]⟩ : Shape).BroadcastsInDim S ![]) :
    Host.divf (broadcastInDim S ![] h (constant (F := Ideal) ⟨0, ![]⟩ .f32 0x3F800000#32))
      (addf (broadcastInDim S ![] h (constant (F := Ideal) ⟨0, ![]⟩ .f32 0x3F800000#32))
        (Host.exp (Host.negf (Host.divf v (broadcastInDim S ![] h (constant (F := Ideal) ⟨0, ![]⟩ .f32 0x3F800000#32))))))
      = fun i => hostLogistic (v i) := by
  funext i
  show Ideal.div (Ideal.ofBits .f32 0x3F800000#32)
      (Ideal.ofBits .f32 0x3F800000#32 + Ideal.exp (-(Ideal.div (v i) (Ideal.ofBits .f32 0x3F800000#32))))
    = hostLogistic (v i)
  rw [ofBits_one]
  rfl

/-- The unit step as a vector unit spells it: the logits compared with zero, the truth value widened and converted. -/
theorem vec_step {S : Shape} (v : FVec Ideal S .f32) (h : 1 < 32) :
    sitofp (F := Ideal) .f32 (extui 32 (cmpf .ogt v (broadcast S (Scalar.ofBits (F := Ideal) .f32 0x00000000#32))) h)
      = fun i => unitStep (v i) := by
  funext i
  show ((((Ideal.cmp .ogt (v i) (Ideal.ofBits .f32 0x00000000#32)).setWidth 32).toInt : ℝ) : EReal) = unitStep (v i)
  rw [Ideal.ofBits_zero_f32]
  unfold unitStep Ideal.cmp
  by_cases h0 : 0 < v i
  · rw [if_pos h0]
    have : decide (0 < v i) = true := decide_eq_true h0
    simp only [this]
    have t : ((BitVec.ofBool true).setWidth 32).toInt = 1 := by decide
    rw [t]; norm_num
  · rw [if_neg h0]
    have : decide (0 < v i) = false := decide_eq_false h0
    simp only [this]
    have t : ((BitVec.ofBool false).setWidth 32).toInt = 0 := by decide
    rw [t]; norm_num

/-- The unit step as a host program spells it: the probabilities compared with one half, the truth value converted. -/
theorem host_step {S : Shape} (v : FVec Ideal S .f32) (h : (⟨0, ![]⟩ : Shape).BroadcastsInDim S ![]) :
    uitofp (F := Ideal) .f32 (cmpf .ogt (fun i => hostLogistic (v i) : FVec Ideal S .f32)
        (broadcastInDim S ![] h (constant (F := Ideal) ⟨0, ![]⟩ .f32 0x3F000000#32)))
      = fun i => unitStep (v i) := by
  funext i
  show (((Ideal.cmp .ogt (hostLogistic (v i)) (Ideal.ofBits .f32 0x3F000000#32)).toNat : ℝ) : EReal) = unitStep (v i)
  rw [ofBits_half]
  unfold unitStep Ideal.cmp
  by_cases h0 : 0 < v i
  · rw [if_pos h0]
    have : decide (((1 / 2 : ℝ) : EReal) < hostLogistic (v i)) = true := decide_eq_true ((half_lt_hostLogistic (v i)).mpr h0)
    simp only [this]
    have t : (BitVec.ofBool true).toNat = 1 := by decide
    rw [t]; norm_num
  · rw [if_neg h0]
    have : decide (((1 / 2 : ℝ) : EReal) < hostLogistic (v i)) = false :=
      decide_eq_false fun hh => h0 ((half_lt_hostLogistic (v i)).mp hh)
    simp only [this]
    have t : (BitVec.ofBool false).toNat = 0 := by decide
    rw [t]; norm_num

end Cert.LibLogisticForms

end
-- ==== Proof.Perceptron.lean ====
/-
  The function both programs compute: a two-layer perceptron with a logistic head and a unit step.

  For a matrix `x : [M, K]` of rows, weights `w1 : [K, H]`, `w2 : [H, N]` and biases `b1`, `b2` per column, the logits are
  `relu (x · w1 + b1) · w2 + b2`, the probabilities are the logistic function of each logit, and the activations are one
  where the logit is positive and zero elsewhere.

  Row `p` of each of the three depends on row `p` of `x` only: the perceptron applied to a block of consecutive rows of
  `x` is that block of rows of the perceptron applied to `x` (`logits_rows`).
-/
import proofs.«100649_g16681652977758_cont_week2b_926_7_alg».proof.Proof.LibLayerForms
import proofs.«100649_g16681652977758_cont_week2b_926_7_alg».proof.Proof.LibLogisticForms

noncomputable section

namespace Cert.Perceptron

open Idealize.ShloMosaic Idealize.ShloMosaic.ValueIdx Cert.DenseLayer Cert.LayerForms Cert.LibLogistic Cert.LibLogisticForms

variable {M K H N : ℕ}

/-- The logits `relu (x · w1 + b1) · w2 + b2`. -/
def logits (x : (⟨2, ![M, K]⟩ : Shape).Idx → EReal) (w1 : (⟨2, ![K, H]⟩ : Shape).Idx → EReal) (b1 : Fin H → EReal)
    (w2 : (⟨2, ![H, N]⟩ : Shape).Idx → EReal) (b2 : Fin N → EReal) : (⟨2, ![M, N]⟩ : Shape).Idx → EReal :=
  dense (relu (dense x w1 b1)) w2 b2

/-- The probabilities: the logistic function of each logit. -/
def probs (x : (⟨2, ![M, K]⟩ : Shape).Idx → EReal) (w1 : (⟨2, ![K, H]⟩ : Shape).Idx → EReal) (b1 : Fin H → EReal)
    (w2 : (⟨2, ![H, N]⟩ : Shape).Idx → EReal) (b2 : Fin N → EReal) : (⟨2, ![M, N]⟩ : Shape).Idx → EReal :=
  fun i => hostLogistic (logits x w1 b1 w2 b2 i)

/-- The activations: one where the logit is positive, zero elsewhere. -/
def acts (x : (⟨2, ![M, K]⟩ : Shape).Idx → EReal) (w1 : (⟨2, ![K, H]⟩ : Shape).Idx → EReal) (b1 : Fin H → EReal)
    (w2 : (⟨2, ![H, N]⟩ : Shape).Idx → EReal) (b2 : Fin N → EReal) : (⟨2, ![M, N]⟩ : Shape).Idx → EReal :=
  fun i => unitStep (logits x w1 b1 w2 b2 i)

/-- The logits on a block of rows are that block of rows of the logits. -/
theorem logits_rows {m : ℕ} {xb : (⟨2, ![m, K]⟩ : Shape).Idx → EReal} {x : (⟨2, ![M, K]⟩ : Shape).Idx → EReal} {off : ℕ}
    (h : RowsAgree xb x off) (w1 : (⟨2, ![K, H]⟩ : Shape).Idx → EReal) (b1 : Fin H → EReal)
    (w2 : (⟨2, ![H, N]⟩ : Shape).Idx → EReal) (b2 : Fin N → EReal) :
    RowsAgree (logits xb w1 b1 w2 b2) (logits x w1 b1 w2 b2) off :=
  dense_rows (relu_rows (dense_rows h w1 b1)) w2 b2

/-- Entry `(p, q)` of the logits of a block of rows `off, off + 1, …` of `x`, computed with arrays equal to the weights and
    biases, is entry `(off + p, q)` of the logits of `x`. -/
theorem logits_block {m : ℕ} (x : (⟨2, ![M, K]⟩ : Shape).Idx → EReal) (xb : (⟨2, ![m, K]⟩ : Shape).Idx → EReal)
    (w1 w1b : (⟨2, ![K, H]⟩ : Shape).Idx → EReal) (b1 b1b : Fin H → EReal)
    (w2 w2b : (⟨2, ![H, N]⟩ : Shape).Idx → EReal) (b2 b2b : Fin N → EReal) (off : ℕ)
    (hx : RowsAgree xb x off) (hw1 : w1b = w1) (hb1 : b1b = b1) (hw2 : w2b = w2) (hb2 : b2b = b2)
    (p : Fin m) (P : Fin M) (hP : P.val = off + p.val) (q : Fin N) :
    logits xb w1b b1b w2b b2b (ix2 p q) = logits x w1 b1 w2 b2 (ix2 P q) := by
  subst hw1 hb1 hw2 hb2
  exact logits_rows hx w1b b1b w2b b2b p P hP q

end Cert.Perceptron

end
-- ==== Proof.LibBiasRow.lean ====
/-
  A dense layer whose bias arrives as a `[1, N]` row.

  A vector unit that is handed the bias already laid out as one row of `N` entries forms `x · w + b` by a matrix
  multiplication into a zero accumulator plus that row — passed through a shape cast that changes nothing — broadcast over
  the `M` rows. Entry `(p, q)` of the result is `(∑ k, x (p, k) · w (k, q)) + b (0, q)`: the array `dense x w (rowBias b)`.
-/
import proofs.«100649_g16681652977758_cont_week2b_926_7_alg».proof.Proof.LibDenseLayer
import proofs.«100649_g16681652977758_cont_week2b_926_7_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LibBiasRow

open Idealize.ShloMosaic Idealize.ShloMosaic.ValueIdx Cert.DenseLayer

/-- A `[1, N]` bias row as a function of the column. -/
def rowBias {N : ℕ} (b : (⟨2, ![1, N]⟩ : Shape).Idx → EReal) : Fin N → EReal := fun q => b (ix2 (0 : Fin 1) q)

/-- The layer as a vector unit spells it when the bias is a `[1, N]` row: the product into a zero accumulator, plus the row
    broadcast over the rows. -/
theorem vec_layer_row {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (rowBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix2 (0 : Fin 1) q)
  rw [Cert.LibPlainMatmul.matmul_plain_zero_apply D hD, broadcastTo_1b_ab_apply, shapeCast_self]

end Cert.LibBiasRow

end
-- ==== Proof.KernelBlock.lean ====
/-
  What the kernel body computes from one point's blocks, as the perceptron.

  At a grid point the body holds a block of 1024 rows of `x`, all of `W1` and `W2`, and the two biases as `[1, 64]` and
  `[1, 1024]` rows. Its first stored value is `relu (xb · W1 + b1) · W2 + b2`, both products accumulated into zero: the
  perceptron's logits of the block. Its second is `1/2 · tanh (1/2 · logits) + 1/2`, the logistic function of each logit;
  its third compares the logits with zero and converts the truth value, the unit step of each logit.
-/
import proofs.«100649_g16681652977758_cont_week2b_926_7_alg».proof.Proof.Gen.KernelIdeal.Skeleton
import proofs.«100649_g16681652977758_cont_week2b_926_7_alg».proof.Proof.Perceptron
import proofs.«100649_g16681652977758_cont_week2b_926_7_alg».proof.Proof.LibBiasRow

noncomputable section

namespace Cert.KernelIdeal.Block

open Cert.KernelIdeal Cert.KernelIdeal.Gen Idealize.ShloMosaic Idealize.ShloMosaic.TcCoe Idealize.ShloMosaic.ValueIdx
open Cert.DenseLayer Cert.LayerForms Cert.LibLogistic Cert.LibLogisticForms Cert.LibBiasRow Cert.Perceptron

variable (x0 : Vec Ideal S1024x128 .f32) (x1 : Vec Ideal S128x64 .f32) (x2 : Vec Ideal S1x64 .f32)
  (x3 : Vec Ideal S64x1024 .f32) (x4 : Vec Ideal S1x1024 .f32)

/-- The first stored value is the block's logits. -/
theorem pay1_eq : k0_pay1 x0 x1 x2 x3 x4 = logits x0 x1 (rowBias x2) x3 (rowBias x4) := by
  dsimp only [k0_pay1]
  rw [vec_layer_row dot_S1024x128_S128x64_S1024x64_1_0_0_1_n_n rfl none x0 x1 x2, vec_relu,
    vec_layer_row dot_S1024x64_S64x1024_S1024x1024_1_0_0_1_n_n rfl none]
  rfl

/-- The second stored value is the logistic function of the block's logits. -/
theorem pay2_eq : k0_pay2 x0 x1 x2 x3 x4 = probs x0 x1 (rowBias x2) x3 (rowBias x4) := by
  dsimp only [k0_pay2]
  rw [vec_logistic, pay1_eq]
  rfl

/-- The third stored value is the unit step of the block's logits. -/
theorem pay3_eq : k0_pay3 x0 x1 x2 x3 x4 = acts x0 x1 (rowBias x2) x3 (rowBias x4) := by
  dsimp only [k0_pay3]
  rw [vec_step, pay1_eq]
  rfl

end Cert.KernelIdeal.Block

end
-- ==== Proof.KernelValue.lean ====
/-
  From the kernel's blocks to its three result arrays.

  The grid has 32 points. At point `t` the kernel stages rows `1024 · t, …, 1024 · t + 1023` of `x`, the whole of `W1` and
  `W2`, and the two bias rows (which the host laid out as `[1, 64]` and `[1, 1024]` before the launch), and writes back rows
  `1024 · t, …` of each of the three results. A row of the perceptron depends on the same row of `x` only, so what point `t`
  writes back is block `t` of the perceptron's logits, probabilities and activations of the whole argument arrays
  (`flushed5_eq`, `flushed6_eq`, `flushed7_eq`). The 32 blocks of 1024 rows tile the 32768 rows (`cover5` …), so after the run
  each result array is that function of the arguments (`final5` …, `run`).
-/
import proofs.«100649_g16681652977758_cont_week2b_926_7_alg».proof.Proof.Gen.KernelIdeal.Value
import proofs.«100649_g16681652977758_cont_week2b_926_7_alg».proof.Proof.KernelBlock
import Idealize.ShloMosaic.Lib.StableHlo.Run
import Idealize.ShloMosaic.Lib.Pipeline.Value
import Idealize.ShloMosaic.Lib.ValueLayout

noncomputable section

namespace Cert.KernelIdeal.KernelValue

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)
open Cert.DenseLayer Cert.LayerForms Cert.LibLogistic Cert.LibLogisticForms Cert.LibBiasRow Cert.Perceptron Cert.KernelIdeal.Block

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 32 grid points: the block of `x` and of each result moves with the point along the rows;
    the weights' and biases' blocks stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The perceptron's logits of the argument arrays. -/
def logitsOf (c : Dev nD) : S32768x1024.Idx → EReal := logits (M := 32768) (K := 128) (H := 64) (N := 1024) (m ((c : Thread nD τ).loc main_arg0)) (m ((c : Thread nD τ).loc main_arg1)) (colBias (m ((c : Thread nD τ).loc main_arg2))) (m ((c : Thread nD τ).loc main_arg3)) (colBias (m ((c : Thread nD τ).loc main_arg4)))
/-- The perceptron's probabilities of the argument arrays. -/
def probsOf (c : Dev nD) : S32768x1024.Idx → EReal := probs (M := 32768) (K := 128) (H := 64) (N := 1024) (m ((c : Thread nD τ).loc main_arg0)) (m ((c : Thread nD τ).loc main_arg1)) (colBias (m ((c : Thread nD τ).loc main_arg2))) (m ((c : Thread nD τ).loc main_arg3)) (colBias (m ((c : Thread nD τ).loc main_arg4)))
/-- The perceptron's activations of the argument arrays. -/
def actsOf (c : Dev nD) : S32768x1024.Idx → EReal := acts (M := 32768) (K := 128) (H := 64) (N := 1024) (m ((c : Thread nD τ).loc main_arg0)) (m ((c : Thread nD τ).loc main_arg1)) (colBias (m ((c : Thread nD τ).loc main_arg2))) (m ((c : Thread nD τ).loc main_arg3)) (colBias (m ((c : Thread nD τ).loc main_arg4)))

/-! ## The input blocks at a point -/

/-- Window 0's block at point `t` is rows `1024 · t, 1024 · t + 1, …` of `x`. -/
theorem x_rows (c : Dev nD) (t : Fin cfg0.N) :
    RowsAgree (m := 1024) (M := 32768) (K := 128) (iblk m c 0 t) (m ((c : Thread nD τ).loc main_arg0)) (t.val * 1024) := by
  intro p P hP k
  obtain ⟨e00, e01, e10, e11, e20, e21, e30, e31, e40, e41, e50, e51, e60, e61, e70, e71⟩ := idx_facts t
  show V m c main_arg0 (((cfg0.win 0).blk t).view.emb (ix2 p k)) = (m ((c : Thread nD τ).loc main_arg0)) (ix2 P k)
  rw [V_main_arg0]
  refine congrArg _ (funext fun a => Fin.ext ?_)
  match a with
  | ⟨0, _⟩ => show win0_0.index t (0 : Fin 2) * 1024 + 1 * p.val = P.val; omega
  | ⟨1, _⟩ => show win0_0.index t (1 : Fin 2) * 128 + 1 * k.val = k.val; omega

/-- Window 1's block at every point is the whole of `W1`. -/
theorem w1_whole (c : Dev nD) (t : Fin cfg0.N) : (iblk m c 1 t : S128x64.Idx → EReal) = (m ((c : Thread nD τ).loc main_arg1)) := by
  obtain ⟨e00, e01, e10, e11, e20, e21, e30, e31, e40, e41, e50, e51, e60, e61, e70, e71⟩ := idx_facts t
  funext j
  show V m c main_arg1 (((cfg0.win 1).blk t).view.emb j) = (m ((c : Thread nD τ).loc main_arg1)) j
  rw [V_main_arg1]
  refine congrArg _ (funext fun a => Fin.ext ?_)
  match a with
  | ⟨0, _⟩ => show win0_1.index t (0 : Fin 2) * 128 + 1 * (j 0).val = (j 0).val; omega
  | ⟨1, _⟩ => show win0_1.index t (1 : Fin 2) * 64 + 1 * (j 1).val = (j 1).val; omega

/-- Window 3's block at every point is the whole of `W2`. -/
theorem w2_whole (c : Dev nD) (t : Fin cfg0.N) : (iblk m c 3 t : S64x1024.Idx → EReal) = (m ((c : Thread nD τ).loc main_arg3)) := by
  obtain ⟨e00, e01, e10, e11, e20, e21, e30, e31, e40, e41, e50, e51, e60, e61, e70, e71⟩ := idx_facts t
  funext j
  show V m c main_arg3 (((cfg0.win 3).blk t).view.emb j) = (m ((c : Thread nD τ).loc main_arg3)) j
  rw [V_main_arg3]
  refine congrArg _ (funext fun a => Fin.ext ?_)
  match a with
  | ⟨0, _⟩ => show win0_3.index t (0 : Fin 2) * 64 + 1 * (j 0).val = (j 0).val; omega
  | ⟨1, _⟩ => show win0_3.index t (1 : Fin 2) * 1024 + 1 * (j 1).val = (j 1).val; omega

/-- The host lays the bias out as a `[1, 64]` row before the region. -/
theorem V_b1 (c : Dev nD) : (V m c main_call0_v0 : S1x64.Idx → EReal) = shapeCast S1x64 (m ((c : Thread nD τ).loc main_arg2)) shapeCasts_S64_S1x64 := by
  dsimp only [Gen.V, Gen.hostOps0]
  after_results
  rfl

/-- Window 2's block at every point is that whole row: column `q` of it is entry `q` of the bias. -/
theorem b1_row (c : Dev nD) (t : Fin cfg0.N) : rowBias (N := 64) (iblk m c 2 t) = colBias (m ((c : Thread nD τ).loc main_arg2)) := by
  obtain ⟨e00, e01, e10, e11, e20, e21, e30, e31, e40, e41, e50, e51, e60, e61, e70, e71⟩ := idx_facts t
  funext q
  show V m c main_call0_v0 (((cfg0.win 2).blk t).view.emb (ix2 (0 : Fin 1) q)) = (m ((c : Thread nD τ).loc main_arg2)) (ix1 q)
  have hemb : ((cfg0.win 2).blk t).view.emb (ix2 (0 : Fin 1) q) = ix2 (0 : Fin 1) q := by
    refine funext fun a => Fin.ext ?_
    match a with
    | ⟨0, _⟩ => show win0_2.index t (0 : Fin 2) * 1 + 1 * 0 = 0; omega
    | ⟨1, _⟩ => show win0_2.index t (1 : Fin 2) * 64 + 1 * q.val = q.val; omega
  rw [hemb, V_b1]
  exact shapeCast_a_1a_apply _ _ 0 q

/-- The host lays the bias out as a `[1, 1024]` row before the region. -/
theorem V_b2 (c : Dev nD) : (V m c main_call0_v1 : S1x1024.Idx → EReal) = shapeCast S1x1024 (m ((c : Thread nD τ).loc main_arg4)) shapeCasts_S1024_S1x1024 := by
  dsimp only [Gen.V, Gen.hostOps0]
  after_results
  rfl

/-- Window 4's block at every point is that whole row: column `q` of it is entry `q` of the bias. -/
theorem b2_row (c : Dev nD) (t : Fin cfg0.N) : rowBias (N := 1024) (iblk m c 4 t) = colBias (m ((c : Thread nD τ).loc main_arg4)) := by
  obtain ⟨e00, e01, e10, e11, e20, e21, e30, e31, e40, e41, e50, e51, e60, e61, e70, e71⟩ := idx_facts t
  funext q
  show V m c main_call0_v1 (((cfg0.win 4).blk t).view.emb (ix2 (0 : Fin 1) q)) = (m ((c : Thread nD τ).loc main_arg4)) (ix1 q)
  have hemb : ((cfg0.win 4).blk t).view.emb (ix2 (0 : Fin 1) q) = ix2 (0 : Fin 1) q := by
    refine funext fun a => Fin.ext ?_
    match a with
    | ⟨0, _⟩ => show win0_4.index t (0 : Fin 2) * 1 + 1 * 0 = 0; omega
    | ⟨1, _⟩ => show win0_4.index t (1 : Fin 2) * 1024 + 1 * q.val = q.val; omega
  rw [hemb, V_b2]
  exact shapeCast_a_1a_apply _ _ 0 q

/-- Entry `(p, q)` of the logits of point `t`'s blocks is entry `(1024 · t + p, q)` of the logits of the arguments. -/
theorem block_entry (c : Dev nD) (t : Fin cfg0.N) (p q : Fin 1024) (P : Fin 32768) (hP : P.val = t.val * 1024 + p.val) :
    logits (iblk m c 0 t) (iblk m c 1 t) (rowBias (iblk m c 2 t)) (iblk m c 3 t) (rowBias (iblk m c 4 t)) (ix2 p q)
      = logitsOf m c (ix2 P q) :=
  logits_block (M := 32768) (K := 128) (H := 64) (N := 1024) (m := 1024) (m ((c : Thread nD τ).loc main_arg0)) (iblk m c 0 t) (m ((c : Thread nD τ).loc main_arg1)) (iblk m c 1 t)
    (colBias (m ((c : Thread nD τ).loc main_arg2))) (rowBias (iblk m c 2 t)) (m ((c : Thread nD τ).loc main_arg3)) (iblk m c 3 t)
    (colBias (m ((c : Thread nD τ).loc main_arg4))) (rowBias (iblk m c 4 t)) (t.val * 1024)
    (x_rows m c t) (w1_whole m c t) (b1_row m c t) (w2_whole m c t) (b2_row m c t) p P hP q

/-! ## Output window 5: the logits -/

/-- Row `p`, column `q` of point `t`'s block of output window 5 is row `1024 · t + p`, column `q` of its array. -/
theorem emb5 (t : Fin cfg0.N) (p q : Fin 1024) (P : Fin 32768) (hP : P.val = t.val * 1024 + p.val) :
    ((cfg0.win 5).blk t).view.emb (ix2 p q) = ix2 P q := by
  obtain ⟨e00, e01, e10, e11, e20, e21, e30, e31, e40, e41, e50, e51, e60, e61, e70, e71⟩ := idx_facts t
  refine funext fun a => Fin.ext ?_
  match a with
  | ⟨0, _⟩ => show win0_5.index t (0 : Fin 2) * 1024 + 1 * p.val = P.val; omega
  | ⟨1, _⟩ => show win0_5.index t (1 : Fin 2) * 1024 + 1 * q.val = q.val; omega

/-- What point `t` writes back to output window 5's array is block `t` of the perceptron's logits of the arguments. -/
theorem flushed5_eq (c : Dev nD) (t : Fin cfg0.N) :
    (dats m 0 c).flushed 5 t = ((cfg0.win 5).blk t).view.read (Elt Ideal) (logitsOf m c) := by
  rw [Value.flushed5]
  unfold out0_5
  rw [View.canon_unit_zero hz]
  simp only [View.ld_unit_zero (S := S1024x128) hz, View.ld_unit_zero (S := S128x64) hz, View.ld_unit_zero (S := S1x64) hz,
    View.ld_unit_zero (S := S64x1024) hz, View.ld_unit_zero (S := S1x1024) hz]
  rw [pay1_eq]
  funext j
  obtain ⟨p, q, rfl⟩ : ∃ (p : Fin 1024) (q : Fin 1024), j = ix2 p q := ⟨j 0, j 1, eq_ix2 j⟩
  have hlt : t.val * 1024 + p.val < 32768 := by
    have h1 : t.val < 32 := lt_of_lt_of_eq t.isLt N_0
    have h2 := p.isLt
    omega
  show logits (iblk m c 0 t) (iblk m c 1 t) (rowBias (iblk m c 2 t)) (iblk m c 3 t) (rowBias (iblk m c 4 t)) (ix2 p q)
    = logitsOf m c (((cfg0.win 5).blk t).view.emb (ix2 p q))
  rw [emb5 t p q ⟨t.val * 1024 + p.val, hlt⟩ rfl]
  exact block_entry m c t p q ⟨t.val * 1024 + p.val, hlt⟩ rfl

/-- An index of output window 5's array is in point `t`'s block iff each coordinate is in the block's range. -/
theorem mem_blk5 (t : Fin cfg0.N) (i : S32768x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v0_0).slice (win0_5.rect t)).set ↔ _
  rw [View.set_slice_whole, Rect.mem_set_unit]
  exact Iff.rfl

/-- Row `r` of the array lies in the block of point `r / 1024`: the 32 blocks of 1024 rows tile the 32768 rows. -/
theorem cover5 (i : S32768x1024.Idx) :
    ∃ t : Fin cfg0.N, (cfg0.win 5).flush t = true ∧ i ∈ ((cfg0.win 5).blk t).view.set := by
  have hi0 : (i 0).val < 32768 := (i 0).isLt
  have hi1 : (i 1).val < 1024 := (i 1).isLt
  have hN : (i 0).val / 1024 < cfg0.N := by rw [show cfg0.N = 32 from N_0]; omega
  obtain ⟨e00, e01, e10, e11, e20, e21, e30, e31, e40, e41, e50, e51, e60, e61, e70, e71⟩ := idx_facts ⟨(i 0).val / 1024, hN⟩
  refine ⟨⟨(i 0).val / 1024, hN⟩, flush0_5 _, ?_⟩
  rw [mem_blk5]
  intro a
  match a with
  | ⟨0, _⟩ =>
    show win0_5.index ⟨(i 0).val / 1024, hN⟩ (0 : Fin 2) * 1024 ≤ (i 0).val
      ∧ (i 0).val < win0_5.index ⟨(i 0).val / 1024, hN⟩ (0 : Fin 2) * 1024 + 1024
    have hv : (⟨(i 0).val / 1024, hN⟩ : Fin cfg0.N).val = (i 0).val / 1024 := rfl
    omega
  | ⟨1, _⟩ =>
    show win0_5.index ⟨(i 0).val / 1024, hN⟩ (1 : Fin 2) * 1024 ≤ (i 1).val
      ∧ (i 1).val < win0_5.index ⟨(i 0).val / 1024, hN⟩ (1 : Fin 2) * 1024 + 1024
    omega

/-- After the run, output window 5's array is the perceptron's logits of the arguments. -/
theorem final5 (c : Dev nD) : (dats m 0 c).arrAt 5 cfg0.N = logitsOf m c :=
  (dats m 0 c).arrAt_eq_of_cover 5 (logitsOf m c) (fun t _ => flushed5_eq m c t) cover5

/-! ## Output window 6: the probabilities -/

/-- Row `p`, column `q` of point `t`'s block of output window 6 is row `1024 · t + p`, column `q` of its array. -/
theorem emb6 (t : Fin cfg0.N) (p q : Fin 1024) (P : Fin 32768) (hP : P.val = t.val * 1024 + p.val) :
    ((cfg0.win 6).blk t).view.emb (ix2 p q) = ix2 P q := by
  obtain ⟨e00, e01, e10, e11, e20, e21, e30, e31, e40, e41, e50, e51, e60, e61, e70, e71⟩ := idx_facts t
  refine funext fun a => Fin.ext ?_
  match a with
  | ⟨0, _⟩ => show win0_6.index t (0 : Fin 2) * 1024 + 1 * p.val = P.val; omega
  | ⟨1, _⟩ => show win0_6.index t (1 : Fin 2) * 1024 + 1 * q.val = q.val; omega

/-- What point `t` writes back to output window 6's array is block `t` of the perceptron's probabilities of the arguments. -/
theorem flushed6_eq (c : Dev nD) (t : Fin cfg0.N) :
    (dats m 0 c).flushed 6 t = ((cfg0.win 6).blk t).view.read (Elt Ideal) (probsOf m c) := by
  rw [Value.flushed6]
  unfold out0_6
  rw [View.canon_unit_zero hz]
  simp only [View.ld_unit_zero (S := S1024x128) hz, View.ld_unit_zero (S := S128x64) hz, View.ld_unit_zero (S := S1x64) hz,
    View.ld_unit_zero (S := S64x1024) hz, View.ld_unit_zero (S := S1x1024) hz]
  rw [pay2_eq]
  funext j
  obtain ⟨p, q, rfl⟩ : ∃ (p : Fin 1024) (q : Fin 1024), j = ix2 p q := ⟨j 0, j 1, eq_ix2 j⟩
  have hlt : t.val * 1024 + p.val < 32768 := by
    have h1 : t.val < 32 := lt_of_lt_of_eq t.isLt N_0
    have h2 := p.isLt
    omega
  show hostLogistic (logits (iblk m c 0 t) (iblk m c 1 t) (rowBias (iblk m c 2 t)) (iblk m c 3 t) (rowBias (iblk m c 4 t)) (ix2 p q))
    = probsOf m c (((cfg0.win 6).blk t).view.emb (ix2 p q))
  rw [emb6 t p q ⟨t.val * 1024 + p.val, hlt⟩ rfl]
  exact congrArg hostLogistic (block_entry m c t p q ⟨t.val * 1024 + p.val, hlt⟩ rfl)

/-- An index of output window 6's array is in point `t`'s block iff each coordinate is in the block's range. -/
theorem mem_blk6 (t : Fin cfg0.N) (i : S32768x1024.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v0_1).slice (win0_6.rect t)).set ↔ _
  rw [View.set_slice_whole, Rect.mem_set_unit]
  exact Iff.rfl

/-- Row `r` of the array lies in the block of point `r / 1024`: the 32 blocks of 1024 rows tile the 32768 rows. -/
theorem cover6 (i : S32768x1024.Idx) :
    ∃ t : Fin cfg0.N, (cfg0.win 6).flush t = true ∧ i ∈ ((cfg0.win 6).blk t).view.set := by
  have hi0 : (i 0).val < 32768 := (i 0).isLt
  have hi1 : (i 1).val < 1024 := (i 1).isLt
  have hN : (i 0).val / 1024 < cfg0.N := by rw [show cfg0.N = 32 from N_0]; omega
  obtain ⟨e00, e01, e10, e11, e20, e21, e30, e31, e40, e41, e50, e51, e60, e61, e70, e71⟩ := idx_facts ⟨(i 0).val / 1024, hN⟩
  refine ⟨⟨(i 0).val / 1024, hN⟩, flush0_6 _, ?_⟩
  rw [mem_blk6]
  intro a
  match a with
  | ⟨0, _⟩ =>
    show win0_6.index ⟨(i 0).val / 1024, hN⟩ (0 : Fin 2) * 1024 ≤ (i 0).val
      ∧ (i 0).val < win0_6.index ⟨(i 0).val / 1024, hN⟩ (0 : Fin 2) * 1024 + 1024
    have hv : (⟨(i 0).val / 1024, hN⟩ : Fin cfg0.N).val = (i 0).val / 1024 := rfl
    omega
  | ⟨1, _⟩ =>
    show win0_6.index ⟨(i 0).val / 1024, hN⟩ (1 : Fin 2) * 1024 ≤ (i 1).val
      ∧ (i 1).val < win0_6.index ⟨(i 0).val / 1024, hN⟩ (1 : Fin 2) * 1024 + 1024
    omega

/-- After the run, output window 6's array is the perceptron's probabilities of the arguments. -/
theorem final6 (c : Dev nD) : (dats m 0 c).arrAt 6 cfg0.N = probsOf m c :=
  (dats m 0 c).arrAt_eq_of_cover 6 (probsOf m c) (fun t _ => flushed6_eq m c t) cover6

/-! ## Output window 7: the activations -/

/-- Row `p`, column `q` of point `t`'s block of output window 7 is row `1024 · t + p`, column `q` of its array. -/
theorem emb7 (t : Fin cfg0.N) (p q : Fin 1024) (P : Fin 32768) (hP : P.val = t.val * 1024 + p.val) :
    ((cfg0.win 7).blk t).view.emb (ix2 p q) = ix2 P q := by
  obtain ⟨e00, e01, e10, e11, e20, e21, e30, e31, e40, e41, e50, e51, e60, e61, e70, e71⟩ := idx_facts t
  refine funext fun a => Fin.ext ?_
  match a with
  | ⟨0, _⟩ => show win0_7.index t (0 : Fin 2) * 1024 + 1 * p.val = P.val; omega
  | ⟨1, _⟩ => show win0_7.index t (1 : Fin 2) * 1024 + 1 * q.val = q.val; omega

/-- What point `t` writes back to output window 7's array is block `t` of the perceptron's activations of the arguments. -/
theorem flushed7_eq (c : Dev nD) (t : Fin cfg0.N) :
    (dats m 0 c).flushed 7 t = ((cfg0.win 7).blk t).view.read (Elt Ideal) (actsOf m c) := by
  rw [Value.flushed7]
  unfold out0_7
  rw [View.canon_unit_zero hz]
  simp only [View.ld_unit_zero (S := S1024x128) hz, View.ld_unit_zero (S := S128x64) hz, View.ld_unit_zero (S := S1x64) hz,
    View.ld_unit_zero (S := S64x1024) hz, View.ld_unit_zero (S := S1x1024) hz]
  rw [pay3_eq]
  funext j
  obtain ⟨p, q, rfl⟩ : ∃ (p : Fin 1024) (q : Fin 1024), j = ix2 p q := ⟨j 0, j 1, eq_ix2 j⟩
  have hlt : t.val * 1024 + p.val < 32768 := by
    have h1 : t.val < 32 := lt_of_lt_of_eq t.isLt N_0
    have h2 := p.isLt
    omega
  show unitStep (logits (iblk m c 0 t) (iblk m c 1 t) (rowBias (iblk m c 2 t)) (iblk m c 3 t) (rowBias (iblk m c 4 t)) (ix2 p q))
    = actsOf m c (((cfg0.win 7).blk t).view.emb (ix2 p q))
  rw [emb7 t p q ⟨t.val * 1024 + p.val, hlt⟩ rfl]
  exact congrArg unitStep (block_entry m c t p q ⟨t.val * 1024 + p.val, hlt⟩ rfl)

/-- An index of output window 7's array is in point `t`'s block iff each coordinate is in the block's range. -/
theorem mem_blk7 (t : Fin cfg0.N) (i : S32768x1024.Idx) :
    i ∈ ((cfg0.win 7).blk t).view.set ↔ ∀ a : Fin 2, win0_7.index t a * S1024x1024.size a ≤ (i a).val
      ∧ (i a).val < win0_7.index t a * S1024x1024.size a + S1024x1024.size a := by
  show i ∈ ((View.whole main_v0_2).slice (win0_7.rect t)).set ↔ _
  rw [View.set_slice_whole, Rect.mem_set_unit]
  exact Iff.rfl

/-- Row `r` of the array lies in the block of point `r / 1024`: the 32 blocks of 1024 rows tile the 32768 rows. -/
theorem cover7 (i : S32768x1024.Idx) :
    ∃ t : Fin cfg0.N, (cfg0.win 7).flush t = true ∧ i ∈ ((cfg0.win 7).blk t).view.set := by
  have hi0 : (i 0).val < 32768 := (i 0).isLt
  have hi1 : (i 1).val < 1024 := (i 1).isLt
  have hN : (i 0).val / 1024 < cfg0.N := by rw [show cfg0.N = 32 from N_0]; omega
  obtain ⟨e00, e01, e10, e11, e20, e21, e30, e31, e40, e41, e50, e51, e60, e61, e70, e71⟩ := idx_facts ⟨(i 0).val / 1024, hN⟩
  refine ⟨⟨(i 0).val / 1024, hN⟩, flush0_7 _, ?_⟩
  rw [mem_blk7]
  intro a
  match a with
  | ⟨0, _⟩ =>
    show win0_7.index ⟨(i 0).val / 1024, hN⟩ (0 : Fin 2) * 1024 ≤ (i 0).val
      ∧ (i 0).val < win0_7.index ⟨(i 0).val / 1024, hN⟩ (0 : Fin 2) * 1024 + 1024
    have hv : (⟨(i 0).val / 1024, hN⟩ : Fin cfg0.N).val = (i 0).val / 1024 := rfl
    omega
  | ⟨1, _⟩ =>
    show win0_7.index ⟨(i 0).val / 1024, hN⟩ (1 : Fin 2) * 1024 ≤ (i 1).val
      ∧ (i 1).val < win0_7.index ⟨(i 0).val / 1024, hN⟩ (1 : Fin 2) * 1024 + 1024
    omega

/-- After the run, output window 7's array is the perceptron's activations of the arguments. -/
theorem final7 (c : Dev nD) : (dats m 0 c).arrAt 7 cfg0.N = actsOf m c :=
  (dats m 0 c).arrAt_eq_of_cover 7 (actsOf m c) (fun t _ => flushed7_eq m c t) cover7

/-! ## The run -/

/-- Every weakly fair execution of the kernel terminates with its three result arrays at the perceptron's logits,
    probabilities and activations of the argument arrays, the arguments unchanged. -/
theorem run : θ_run defs (onTc (τ := τ) (main (F := Ideal))) ⟨m, fun _ => 0, ρ⟩ fun r => ∀ c : Dev nD,
      r.2.mem ((c : Thread nD τ).loc main_v0_0) = logitsOf m c
      ∧ r.2.mem ((c : Thread nD τ).loc main_v0_1) = probsOf m c
      ∧ r.2.mem ((c : Thread nD τ).loc main_v0_2) = actsOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c),
      (h c).2.2.1.trans (final7 m c), (h c).2.2.2⟩)
    (Value.run_blocks m ρ)

end Cert.KernelIdeal.KernelValue

end
-- ==== Proof.ReferenceValue.lean ====
/-
  What the reference computes, as the perceptron.

  The reference forms `x · W1` by a general dot product, adds `b1` broadcast to a row and then over the rows, clamps below at
  zero, does the same with `W2` and `b2` to get the logits, applies `1 / (1 + exp (-(l / 1)))` entry by entry to get the
  probabilities, and compares the probabilities with one half to get the activations. These are the perceptron's
  `logits`, `probs` and `acts` of the five argument arrays.
-/
import proofs.«100649_g16681652977758_cont_week2b_926_7_alg».proof.Proof.Gen.ReferenceIdeal.Run
import proofs.«100649_g16681652977758_cont_week2b_926_7_alg».proof.Proof.Perceptron

noncomputable section

namespace Cert.ReferenceIdeal.RefValue

open Cert.ReferenceIdeal Cert.ReferenceIdeal.Gen Idealize.ShloMosaic Idealize.ShloMosaic.TcCoe Idealize.ShloMosaic.ValueIdx
open Cert.DenseLayer Cert.LayerForms Cert.LibLogistic Cert.LibLogisticForms Cert.Perceptron

variable (a0 : FVec Ideal S32768x128 .f32) (a1 : FVec Ideal S128x64 .f32) (a2 : FVec Ideal S64 .f32)
  (a3 : FVec Ideal S64x1024 .f32) (a4 : FVec Ideal S1024 .f32)

/-- The reference's logits, as its operations compose them. -/
def refLogits : FVec Ideal S32768x1024 .f32 :=
  addf (Host.dotGeneral dot_S32768x64_S64x1024_S32768x1024_1_0_0_1_n_n none
      (maximumf (addf (Host.dotGeneral dot_S32768x128_S128x64_S32768x64_1_0_0_1_n_n none a0 a1)
          (broadcastInDim S32768x64 ![0, 1] bcast_S1x64_S32768x64_0_1 (broadcastInDim S1x64 ![1] bcast_S64_S1x64_1 a2)))
        (broadcastInDim S32768x64 ![] bcast_S_S32768x64 (constant S_ .f32 0x00000000#32))) a3)
    (broadcastInDim S32768x1024 ![0, 1] bcast_S1x1024_S32768x1024_0_1 (broadcastInDim S1x1024 ![1] bcast_S1024_S1x1024_1 a4))

/-- Two dense layers with the rectifier between them. -/
theorem refLogits_eq : refLogits a0 a1 a2 a3 a4 = logits a0 a1 (colBias a2) a3 (colBias a4) := by
  unfold refLogits
  rw [host_layer dot_S32768x128_S128x64_S32768x64_1_0_0_1_n_n rfl none a0 a1 a2, host_relu,
    host_layer dot_S32768x64_S64x1024_S32768x1024_1_0_0_1_n_n rfl none]
  rfl

/-- The reference's probabilities are the logistic function of its logits. -/
theorem refProbs_eq :
    Host.divf (broadcastInDim S32768x1024 ![] bcast_S_S32768x1024 (constant S_ .f32 0x3F800000#32))
      (addf (broadcastInDim S32768x1024 ![] bcast_S_S32768x1024 (constant S_ .f32 0x3F800000#32))
        (Host.exp (Host.negf (Host.divf (refLogits a0 a1 a2 a3 a4)
          (broadcastInDim S32768x1024 ![] bcast_S_S32768x1024 (constant S_ .f32 0x3F800000#32))))))
      = probs a0 a1 (colBias a2) a3 (colBias a4) := by
  rw [host_logistic, refLogits_eq]
  rfl

/-- The reference's activations are the unit step of its logits: its probability exceeds one half exactly where the logit is
    positive. -/
theorem refActs_eq :
    uitofp (F := Ideal) .f32 (cmpf .ogt
      (Host.divf (broadcastInDim S32768x1024 ![] bcast_S_S32768x1024 (constant S_ .f32 0x3F800000#32))
        (addf (broadcastInDim S32768x1024 ![] bcast_S_S32768x1024 (constant S_ .f32 0x3F800000#32))
          (Host.exp (Host.negf (Host.divf (refLogits a0 a1 a2 a3 a4)
            (broadcastInDim S32768x1024 ![] bcast_S_S32768x1024 (constant S_ .f32 0x3F800000#32)))))))
      (broadcastInDim S32768x1024 ![] bcast_S_S32768x1024 (constant S_ .f32 0x3F000000#32)))
      = acts a0 a1 (colBias a2) a3 (colBias a4) := by
  rw [host_logistic, host_step, refLogits_eq]
  rfl

end Cert.ReferenceIdeal.RefValue

end
-- ==== Proof.lean ====
/-
  A two-layer perceptron with a logistic head, computed by a kernel over blocks of rows and by a host reference over
  the whole arrays, gives the same three results on the extended reals.

  Both programs take `x : [32768, 128]`, `W1 : [128, 64]`, `b1 : [64]`, `W2 : [64, 1024]`, `b2 : [1024]` and return the logits
  `relu (x · W1 + b1) · W2 + b2`, the probabilities (the logistic function of each logit) and the activations (one where the
  probability exceeds one half, zero elsewhere).

  The logits are the same sums of the same products in both programs: a matrix product accumulated into zero on the vector
  unit and a general dot product on the host are the same contraction, and a row of the result depends on the same row of
  `x` only, so the kernel's 32 blocks of 1024 rows are the blocks of the reference's array.

  The kernel spells the probability `1/2 · tanh (l / 2) + 1/2` and the reference `1 / (1 + exp (-(l / 1)))`; these agree at
  every extended real `l`: on a real by the identity `tanh (r/2) = (1 - e^(-r)) / (1 + e^(-r))`, at `-∞` both are `0` and at
  `+∞` both are `1`. The kernel's activation tests `l > 0` and the reference's tests that the probability exceeds `1/2`; the
  logistic function is increasing with value `1/2` at `0`, so the two tests agree, again at every extended real. No step
  uses that the inputs are finite.

  The idealized kernel is the kernel's own text read on the extended reals (no rewrite was applied), so that conjunct
  holds trivially; each program's frame is its run with the results dropped.
-/
import proofs.«100649_g16681652977758_cont_week2b_926_7_alg».proof.Defs
import proofs.«100649_g16681652977758_cont_week2b_926_7_alg».proof.Proof.Gen.Kernel
import proofs.«100649_g16681652977758_cont_week2b_926_7_alg».proof.Proof.Gen.Kernel.Skeleton
import proofs.«100649_g16681652977758_cont_week2b_926_7_alg».proof.Proof.Gen.Kernel.Launch
import proofs.«100649_g16681652977758_cont_week2b_926_7_alg».proof.Proof.Gen.Kernel.Points
import proofs.«100649_g16681652977758_cont_week2b_926_7_alg».proof.Proof.Gen.Kernel.Frame
import proofs.«100649_g16681652977758_cont_week2b_926_7_alg».proof.Proof.Gen.KernelIdeal
import proofs.«100649_g16681652977758_cont_week2b_926_7_alg».proof.Proof.Gen.KernelIdeal.Skeleton
import proofs.«100649_g16681652977758_cont_week2b_926_7_alg».proof.Proof.Gen.KernelIdeal.Launch
import proofs.«100649_g16681652977758_cont_week2b_926_7_alg».proof.Proof.Gen.KernelIdeal.Points
import proofs.«100649_g16681652977758_cont_week2b_926_7_alg».proof.Proof.Gen.KernelIdeal.Frame
import proofs.«100649_g16681652977758_cont_week2b_926_7_alg».proof.Proof.Gen.ReferenceIdeal
import proofs.«100649_g16681652977758_cont_week2b_926_7_alg».proof.Proof.Gen.Pre_finite_inputs
import proofs.«100649_g16681652977758_cont_week2b_926_7_alg».proof.Proof.Gen.KernelIdeal.Value
import proofs.«100649_g16681652977758_cont_week2b_926_7_alg».proof.Proof.Gen.ReferenceIdeal.Run
import proofs.«100649_g16681652977758_cont_week2b_926_7_alg».proof.Proof.KernelValue
import proofs.«100649_g16681652977758_cont_week2b_926_7_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the five arguments, the kernel's three result arrays end at the perceptron's logits,
    probabilities and activations of the arguments, and so do the reference's. -/
theorem algebraic : Cert.algebraic_KernelIdeal_ReferenceIdeal := by
  intro m ρ m' ρ' _ hagree
  refine ⟨fun c => Cert.KernelIdeal.KernelValue.logitsOf m c, fun c => Cert.KernelIdeal.KernelValue.probsOf m c,
    fun c => Cert.KernelIdeal.KernelValue.actsOf m c, Cert.KernelIdeal.KernelValue.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [(hagree c).1, (hagree c).2.1, (hagree c).2.2.1, (hagree c).2.2.2.1, (hagree c).2.2.2.2]
    exact Cert.ReferenceIdeal.RefValue.refLogits_eq _ _ _ _ _
  · rw [(hagree c).1, (hagree c).2.1, (hagree c).2.2.1, (hagree c).2.2.2.1, (hagree c).2.2.2.2]
    exact Cert.ReferenceIdeal.RefValue.refProbs_eq _ _ _ _ _
  · rw [(hagree c).1, (hagree c).2.1, (hagree c).2.2.1, (hagree c).2.2.2.1, (hagree c).2.2.2.2]
    exact Cert.ReferenceIdeal.RefValue.refActs_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
